-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S2x500000 : Shape := ⟨2, ![2, 500000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg6 : FVec F S96x96 .f32) (main_arg7 : FVec F S96x96 .f32) (main_arg8 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg6
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96x96 .f32 := Host.absf main_arg7
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg8
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  main_v33

def fn {F : FTy → Type} [FloatOps F] (main_arg0 : FVec F S50000x96 .f32) (main_arg1 : IVec S2x800000 32) (main_arg2 : IVec S2x500000 32) (main_arg3 : FVec F S96x96 .f32) (main_arg4 : FVec F S96x96 .f32) (main_arg5 : FVec F S96 .f32) (main_arg6 : FVec F S96x96 .f32) (main_arg7 : FVec F S96x96 .f32) (main_arg8 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg3
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96x96 .f32 := Host.absf main_arg4
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg5
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg6 main_arg7 main_arg8 main_v13 main_v16
-- ==== Kernel.lean ====
abbrev S50000x96 : Shape := ⟨2, ![50000, 96]⟩
abbrev S2x800000 : Shape := ⟨2, ![2, 800000]⟩
abbrev S2x500000 : Shape := ⟨2, ![2, 500000]⟩
abbrev S96x96 : Shape := ⟨2, ![96, 96]⟩
abbrev S96 : Shape := ⟨1, ![96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S5000x96 : Shape := ⟨2, ![5000, 96]⟩
abbrev S1x96 : Shape := ⟨2, ![1, 96]⟩
abbrev S1x500000 : Shape := ⟨2, ![1, 500000]⟩
abbrev S500000 : Shape := ⟨1, ![500000]⟩
abbrev S500000x1 : Shape := ⟨2, ![500000, 1]⟩
abbrev S500000x96 : Shape := ⟨2, ![500000, 96]⟩
abbrev S503808x96 : Shape := ⟨2, ![503808, 96]⟩
abbrev S503808 : Shape := ⟨1, ![503808]⟩
abbrev S4096x96 : Shape := ⟨2, ![4096, 96]⟩
abbrev S4096 : Shape := ⟨1, ![4096]⟩

abbrev nBuf : Space → Nat
  | .hbm => 71
  | .vmem => 24
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S2x500000, .i32⟩
  | .hbm, ⟨3, _⟩ => ⟨S96x96, .f32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96x96, .f32⟩
  | .hbm, ⟨8, _⟩ => ⟨S96, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x96, .f32⟩
  | .hbm, ⟨22, _⟩ => ⟨S_, .f32⟩
  | .hbm, ⟨23, _⟩ => ⟨S50000x96, .f32⟩
  | .hbm, ⟨24, _⟩ => ⟨S800000x1, .i32⟩
  | .hbm, ⟨25, _⟩ => ⟨S50000x96, .f32⟩
  | .hbm, ⟨26, _⟩ => ⟨S50000x96, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x96, .f32⟩
  | .hbm, ⟨36, _⟩ => ⟨S_, .f32⟩
  | .hbm, ⟨37, _⟩ => ⟨S50000x96, .f32⟩
  | .hbm, ⟨38, _⟩ => ⟨S800000x1, .i32⟩
  | .hbm, ⟨39, _⟩ => ⟨S50000x96, .f32⟩
  | .hbm, ⟨40, _⟩ => ⟨S50000x96, .f32⟩
  | .hbm, ⟨41, _⟩ => ⟨S1x500000, .i32⟩
  | .hbm, ⟨42, _⟩ => ⟨S500000, .i32⟩
  | .hbm, ⟨43, _⟩ => ⟨S1x500000, .i32⟩
  | .hbm, ⟨44, _⟩ => ⟨S500000, .i32⟩
  | .hbm, ⟨45, _⟩ => ⟨S_, .i32⟩
  | .hbm, ⟨46, _⟩ => ⟨S500000, .i32⟩
  | .hbm, ⟨47, _⟩ => ⟨S500000, .i1⟩
  | .hbm, ⟨48, _⟩ => ⟨S_, .i32⟩
  | .hbm, ⟨49, _⟩ => ⟨S500000, .i32⟩
  | .hbm, ⟨50, _⟩ => ⟨S500000, .i32⟩
  | .hbm, ⟨51, _⟩ => ⟨S500000, .i32⟩
  | .hbm, ⟨52, _⟩ => ⟨S500000x1, .i32⟩
  | .hbm, ⟨53, _⟩ => ⟨S500000x96, .f32⟩
  | .hbm, ⟨54, _⟩ => ⟨S_, .i32⟩
  | .hbm, ⟨55, _⟩ => ⟨S500000, .i32⟩
  | .hbm, ⟨56, _⟩ => ⟨S500000, .i1⟩
  | .hbm, ⟨57, _⟩ => ⟨S_, .i32⟩
  | .hbm, ⟨58, _⟩ => ⟨S500000, .i32⟩
  | .hbm, ⟨59, _⟩ => ⟨S500000, .i32⟩
  | .hbm, ⟨60, _⟩ => ⟨S500000, .i32⟩
  | .hbm, ⟨61, _⟩ => ⟨S500000x1, .i32⟩
  | .hbm, ⟨62, _⟩ => ⟨S500000x96, .f32⟩
  | .hbm, ⟨63, _⟩ => ⟨S_, .i32⟩
  | .hbm, ⟨64, _⟩ => ⟨S_, .f32⟩
  | .hbm, ⟨65, _⟩ => ⟨S503808x96, .f32⟩
  | .hbm, ⟨66, _⟩ => ⟨S_, .i32⟩
  | .hbm, ⟨67, _⟩ => ⟨S_, .f32⟩
  | .hbm, ⟨68, _⟩ => ⟨S503808x96, .f32⟩
  | .hbm, ⟨69, _⟩ => ⟨S503808, .f32⟩
  | .hbm, ⟨70, _⟩ => ⟨S500000, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x96, .f32⟩
  | .local _ .vmem, ⟨5, _⟩ => ⟨S96x96, .f32⟩
  | .local _ .vmem, ⟨6, _⟩ => ⟨S96, .f32⟩
  | .local _ .vmem, ⟨7, _⟩ => ⟨S5000x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S96x96, .f32⟩
  | .local _ .vmem, ⟨14, _⟩ => ⟨S96x96, .f32⟩
  | .local _ .vmem, ⟨15, _⟩ => ⟨S96, .f32⟩
  | .local _ .vmem, ⟨16, _⟩ => ⟨S5000x96, .f32⟩
  | .local _ .vmem, ⟨17, _⟩ => ⟨S5000x96, .f32⟩
  | .local _ .vmem, ⟨18, _⟩ => ⟨S4096x96, .f32⟩
  | .local _ .vmem, ⟨19, _⟩ => ⟨S4096x96, .f32⟩
  | .local _ .vmem, ⟨20, _⟩ => ⟨S4096x96, .f32⟩
  | .local _ .vmem, ⟨21, _⟩ => ⟨S4096x96, .f32⟩
  | .local _ .vmem, ⟨22, _⟩ => ⟨S4096, .f32⟩
  | .local _ .vmem, ⟨23, _⟩ => ⟨S4096, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_call0_v0 : Ref sig .tc := ⟨.hbm, 64, rfl⟩
abbrev main_v44 : Ref sig .tc := ⟨.hbm, 65, rfl⟩
abbrev main_c_9 : Ref sig .tc := ⟨.hbm, 66, rfl⟩
abbrev main_call1_v0 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![123], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S4096x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S96_S96_0 : ∀ a, (![0] : Fin 1 → Nat) a + S96.size a ≤ S96.size a
  h_S96 : 0 < S96.numel
  shapeCasts_S96_S1x96 : S96.ShapeCasts S1x96
  broadcasts_S1x96_S5000x96 : S1x96.Broadcasts S5000x96
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  pads_S500000x96_S503808x96_038080_000 : S500000x96.Pads (![0, 0] : Fin 2 → Nat) ![3808, 0] ![0, 0] S503808x96
  h_S_ : 0 < S_.numel
  inb_S4096x96_S4096x96_0_0 : ∀ a, (![0, 0] : Fin 2 → Nat) a + S4096x96.size a ≤ S4096x96.size a
  h_S4096x96 : 0 < S4096x96.numel
  shapeCasts_S4096x96_S4096x96 : S4096x96.ShapeCasts S4096x96
  reduces_S4096x96_S4096 : S4096x96.Reduces [1] S4096
  inb_S4096_S4096_0 : ∀ a, (![0] : Fin 1 → Nat) a + S4096.size a ≤ S4096.size a
  h_S4096 : 0 < S4096.numel
  slices_S503808_S500000_0 : S503808.Slices ![0] S500000
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  gather_S50000x96_S500000x1_S500000x96_1_0_n_n_0_1_196_wf : GatherDims.WF S50000x96 S500000x1 S500000x96 [1] [0] [] [0] [] 1 ![1, 96]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96.size a ≤ S96.size a
  hwx0_4 : ∀ i : grid0.Coords, EltTy.bits .f32 = 32 ∨ (Rect.block (s := S96) S96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x96.size a ≤ S50000x96.size a
  hwx0_5 : ∀ i : grid0.Coords, EltTy.bits .f32 = 32 ∨ (Rect.block (s := S50000x96) S5000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x96.size a ≤ S96x96.size a
  hwx1_3 : ∀ i : grid1.Coords, EltTy.bits .f32 = 32 ∨ (Rect.block (s := S96x96) S96x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96.size a ≤ S96.size a
  hwx1_4 : ∀ i : grid1.Coords, EltTy.bits .f32 = 32 ∨ (Rect.block (s := S96) S96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x96.size a ≤ S50000x96.size a
  hwx1_5 : ∀ i : grid1.Coords, EltTy.bits .f32 = 32 ∨ (Rect.block (s := S50000x96) S5000x96.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x96.size a ≤ S503808x96.size a
  hwx2_0 : ∀ i : grid2.Coords, EltTy.bits .f32 = 32 ∨ (Rect.block (s := S503808x96) S4096x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x96.size a ≤ S503808x96.size a
  hwx2_1 : ∀ i : grid2.Coords, EltTy.bits .f32 = 32 ∨ (Rect.block (s := S503808x96) S4096x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096.size a ≤ S503808.size a
  hwx2_2 : ∀ i : grid2.Coords, EltTy.bits .f32 = 32 ∨ (Rect.block (s := S503808) S4096.size (cc2_transform_2 i) (hinb2_2 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S500000x1_S500000x96_1_0_n_n_0_1_196 : GatherDims S50000x96 S500000x1 S500000x96 where
  offsetDims := [1]
  collapsedSliceDims := [0]
  operandBatchingDims := []
  startIndicesBatchingDims := []
  startIndexMap := [0]
  indexVectorDim := 1
  sliceSizes := ![1, 96]
  wf := gather_S50000x96_S500000x1_S500000x96_1_0_n_n_0_1_196_wf

abbrev win0_0 : Pipeline.Window sig grid0 :=
  Pipeline.Window.ofSpec (Memref.whole main_v13) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S5000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S96x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S4096x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S4096x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S4096.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S2x500000 : Shape := ⟨2, ![2, 500000]⟩
abbrev S96x96 : Shape := ⟨2, ![96, 96]⟩
abbrev S96 : Shape := ⟨1, ![96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩
abbrev S1x500000 : Shape := ⟨2, ![1, 500000]⟩
abbrev S500000 : Shape := ⟨1, ![500000]⟩
abbrev S500000x1 : Shape := ⟨2, ![500000, 1]⟩
abbrev S500000x96 : Shape := ⟨2, ![500000, 96]⟩

abbrev nBuf : Space → Nat
  | .hbm => 91
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S2x500000, .i32⟩
  | .hbm, ⟨3, _⟩ => ⟨S96x96, .f32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96x96, .f32⟩
  | .hbm, ⟨8, _⟩ => ⟨S96, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x96, .f32⟩
  | .hbm, ⟨22, _⟩ => ⟨S_, .f32⟩
  | .hbm, ⟨23, _⟩ => ⟨S50000x96, .f32⟩
  | .hbm, ⟨24, _⟩ => ⟨S800000x1, .i32⟩
  | .hbm, ⟨25, _⟩ => ⟨S50000x96, .f32⟩
  | .hbm, ⟨26, _⟩ => ⟨S50000x96, .f32⟩
  | .hbm, ⟨27, _⟩ => ⟨S1x96, .f32⟩
  | .hbm, ⟨28, _⟩ => ⟨S50000x96, .f32⟩
  | .hbm, ⟨29, _⟩ => ⟨S50000x96, .f32⟩
  | .hbm, ⟨30, _⟩ => ⟨S50000x96, .f32⟩
  | .hbm, ⟨31, _⟩ => ⟨S50000x96, .f32⟩
  | .hbm, ⟨32, _⟩ => ⟨S_, .f32⟩
  | .hbm, ⟨33, _⟩ => ⟨S50000x96, .f32⟩
  | .hbm, ⟨34, _⟩ => ⟨S50000x96, .f32⟩
  | .hbm, ⟨35, _⟩ => ⟨S1x800000, .i32⟩
  | .hbm, ⟨36, _⟩ => ⟨S800000, .i32⟩
  | .hbm, ⟨37, _⟩ => ⟨S1x800000, .i32⟩
  | .hbm, ⟨38, _⟩ => ⟨S800000, .i32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x96, .f32⟩
  | .hbm, ⟨48, _⟩ => ⟨S_, .f32⟩
  | .hbm, ⟨49, _⟩ => ⟨S50000x96, .f32⟩
  | .hbm, ⟨50, _⟩ => ⟨S800000x1, .i32⟩
  | .hbm, ⟨51, _⟩ => ⟨S50000x96, .f32⟩
  | .hbm, ⟨52, _⟩ => ⟨S50000x96, .f32⟩
  | .hbm, ⟨53, _⟩ => ⟨S1x96, .f32⟩
  | .hbm, ⟨54, _⟩ => ⟨S50000x96, .f32⟩
  | .hbm, ⟨55, _⟩ => ⟨S50000x96, .f32⟩
  | .hbm, ⟨56, _⟩ => ⟨S50000x96, .f32⟩
  | .hbm, ⟨57, _⟩ => ⟨S50000x96, .f32⟩
  | .hbm, ⟨58, _⟩ => ⟨S1x500000, .i32⟩
  | .hbm, ⟨59, _⟩ => ⟨S500000, .i32⟩
  | .hbm, ⟨60, _⟩ => ⟨S_, .i32⟩
  | .hbm, ⟨61, _⟩ => ⟨S500000, .i32⟩
  | .hbm, ⟨62, _⟩ => ⟨S500000, .i1⟩
  | .hbm, ⟨63, _⟩ => ⟨S_, .i32⟩
  | .hbm, ⟨64, _⟩ => ⟨S500000, .i32⟩
  | .hbm, ⟨65, _⟩ => ⟨S500000, .i32⟩
  | .hbm, ⟨66, _⟩ => ⟨S500000, .i32⟩
  | .hbm, ⟨67, _⟩ => ⟨S500000x1, .i32⟩
  | .hbm, ⟨68, _⟩ => ⟨S500000x96, .f32⟩
  | .hbm, ⟨69, _⟩ => ⟨S1x500000, .i32⟩
  | .hbm, ⟨70, _⟩ => ⟨S500000, .i32⟩
  | .hbm, ⟨71, _⟩ => ⟨S_, .i32⟩
  | .hbm, ⟨72, _⟩ => ⟨S500000, .i32⟩
  | .hbm, ⟨73, _⟩ => ⟨S500000, .i1⟩
  | .hbm, ⟨74, _⟩ => ⟨S_, .i32⟩
  | .hbm, ⟨75, _⟩ => ⟨S500000, .i32⟩
  | .hbm, ⟨76, _⟩ => ⟨S500000, .i32⟩
  | .hbm, ⟨77, _⟩ => ⟨S500000, .i32⟩
  | .hbm, ⟨78, _⟩ => ⟨S500000x1, .i32⟩
  | .hbm, ⟨79, _⟩ => ⟨S500000x96, .f32⟩
  | .hbm, ⟨80, _⟩ => ⟨S500000x96, .f32⟩
  | .hbm, ⟨81, _⟩ => ⟨S_, .f32⟩
  | .hbm, ⟨82, _⟩ => ⟨S500000, .f32⟩
  | .hbm, ⟨83, _⟩ => ⟨S500000, .f32⟩
  | .hbm, ⟨84, _⟩ => ⟨S500000, .f32⟩
  | .hbm, ⟨85, _⟩ => ⟨S_, .f32⟩
  | .hbm, ⟨86, _⟩ => ⟨S500000, .f32⟩
  | .hbm, ⟨87, _⟩ => ⟨S500000, .f32⟩
  | .hbm, ⟨88, _⟩ => ⟨S_, .f32⟩
  | .hbm, ⟨89, _⟩ => ⟨S500000, .f32⟩
  | .hbm, ⟨90, _⟩ => ⟨S500000, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_1 : Ref sig .tc := ⟨.hbm, 39, rfl⟩
abbrev main_v25 : Ref sig .tc := ⟨.hbm, 40, rfl⟩
abbrev main_v26 : Ref sig .tc := ⟨.hbm, 41, rfl⟩
abbrev main_c_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_4 : Ref sig .tc := ⟨.hbm, 60, rfl⟩
abbrev main_v43 : Ref sig .tc := ⟨.hbm, 61, rfl⟩
abbrev main_v44 : Ref sig .tc := ⟨.hbm, 62, rfl⟩
abbrev main_c_5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_6 : Ref sig .tc := ⟨.hbm, 71, rfl⟩
abbrev main_v52 : Ref sig .tc := ⟨.hbm, 72, rfl⟩
abbrev main_v53 : Ref sig .tc := ⟨.hbm, 73, rfl⟩
abbrev main_c_7 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_8 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_9 : Ref sig .tc := ⟨.hbm, 85, rfl⟩
abbrev main_v63 : Ref sig .tc := ⟨.hbm, 86, rfl⟩
abbrev main_v64 : Ref sig .tc := ⟨.hbm, 87, rfl⟩
abbrev main_cst_10 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  reducesTo_S500000x96_S500000_d1 : S500000x96.ReducesTo [1] S500000
  h_S_ : 0 < S_.numel
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  gather_S50000x96_S500000x1_S500000x96_1_0_n_n_0_1_196_wf : GatherDims.WF S50000x96 S500000x1 S500000x96 [1] [0] [] [0] [] 1 ![1, 96]

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S500000x1_S500000x96_1_0_n_n_0_1_196 : GatherDims S50000x96 S500000x1 S500000x96 where
  offsetDims := [1]
  collapsedSliceDims := [0]
  operandBatchingDims := []
  startIndicesBatchingDims := []
  startIndexMap := [0]
  indexVectorDim := 1
  sliceSizes := ![1, 96]
  wf := gather_S50000x96_S500000x1_S500000x96_1_0_n_n_0_1_196_wf

class Facts : Prop extends Facts₀ where

variable [Facts]
-- ==== Proof.KernelRun.lean ====
/-
  The idealized kernel's run with its result named: every weakly fair execution of @main terminates, nothing faulting,
  with the result array at what the last host stretch leaves in it — the fold of the host stretches and of the three
  regions' write-backs from the launch memory, read at the result's buffer — and the argument arrays as launched.
  The run is the one behind the frame: the same segments, the same launch, the last thread state read against the final
  memory at one more buffer.
-/
import proofs.«164976_j13151189860606_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result buffer read off the last boundary's contents. -/
theorem run_out : θ_run defs (onTc (τ := τ) (main (F := F))) ⟨m, fun _ => 0, ρ⟩ (fun r => ∀ c : Dev nD,
      r.2.mem ((c.tc : Thread nD τ).loc main_v47) = W10 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v47 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Bridge

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.DensePay.lean ====
/-
  What one grid point of each kernel computes, read at an index over the extended reals.

  The two dense layers: a row block `a` of the aggregated neighbours and the same rows `x` of the node features go
  through two 96×96 matrix products into zero accumulators (the rounding to bf16 on the way in is the identity on
  the extended reals), the two products are added, the bias row is broadcast over the block's rows and added; the
  first layer then takes the maximum with zero. The edge kernel multiplies two row blocks entry by entry, sums each
  row and applies the logistic function.
-/
import proofs.«164976_j13151189860606_1_alg».proof.Proof.Gen.KernelIdeal.Skeleton
import proofs.«164976_j13151189860606_1_alg».proof.Proof.LibMatmulNN
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Bridge

open Idealize.ShloMosaic Idealize.ShloMosaic.ValueIdx

/-- Entry `(p, q)` of `a · wl + x · wr + b`: row `p` of `a` against column `q` of `wl`, row `p` of `x` against
    column `q` of `wr`, and the bias at `q`. -/
def affineAt {n : Nat} (a x : FVec Ideal ⟨2, ![n, 96]⟩ .f32) (wl wr : FVec Ideal ⟨2, ![96, 96]⟩ .f32)
    (b : FVec Ideal ⟨1, ![96]⟩ .f32) (p : Fin n) (q : Fin 96) : EReal :=
  (∑ k : Fin 96, a (ix2 p k) * wl (ix2 k q)) + (∑ k : Fin 96, x (ix2 p k) * wr (ix2 k q)) + b (ix1 q)

/-- Row `r` of two `[n, 96]` arrays multiplied entry by entry and summed: their rows' inner product. -/
def rowDot {n : Nat} (s d : FVec Ideal ⟨2, ![n, 96]⟩ .f32) (r : Fin n) : EReal :=
  ∑ k : Fin 96, s (ix2 r k) * d (ix2 r k)

/-- A dense layer over all the nodes, `a · wl + x · wr + b` entry by entry. -/
def dense (a x : FVec Ideal ⟨2, ![50000, 96]⟩ .f32) (wl wr : FVec Ideal ⟨2, ![96, 96]⟩ .f32)
    (b : FVec Ideal ⟨1, ![96]⟩ .f32) : FVec Ideal ⟨2, ![50000, 96]⟩ .f32 :=
  fun i => affineAt a x wl wr b (i 0) (i 1)

/-- A dense layer followed by the maximum with zero. -/
def denseRelu (a x : FVec Ideal ⟨2, ![50000, 96]⟩ .f32) (wl wr : FVec Ideal ⟨2, ![96, 96]⟩ .f32)
    (b : FVec Ideal ⟨1, ![96]⟩ .f32) : FVec Ideal ⟨2, ![50000, 96]⟩ .f32 :=
  fun i => max (affineAt a x wl wr b (i 0) (i 1)) 0

/-- The logistic function of each row's inner product. -/
def scores {n : Nat} (s d : FVec Ideal ⟨2, ![n, 96]⟩ .f32) : FVec Ideal ⟨1, ![n]⟩ .f32 :=
  fun i => Ideal.logistic (rowDot s d (i 0))

end Cert.Bridge

namespace Cert.KernelIdeal.Bridge

open Cert.KernelIdeal Cert.KernelIdeal.Gen Cert.Bridge Idealize.ShloMosaic Idealize.ShloMosaic.ValueIdx

/-- The bias row broadcast over a block's rows reads the bias at the column. -/
theorem bias_apply (b : FVec Ideal S96 .f32) (p : Fin 5000) (q : Fin 96) :
    broadcastTo S5000x96 (shapeCast S1x96 b shapeCasts_S96_S1x96) broadcasts_S1x96_S5000x96 (ix2 p q) = b (ix1 q) :=
  (broadcastTo_1b_ab_apply _ broadcasts_S1x96_S5000x96 p q).trans (shapeCast_a_1a_apply b shapeCasts_S96_S1x96 0 q)

/-- The first layer's block: the affine map of the two row blocks, cut off below at zero. -/
theorem pay0_apply (x0 x1 : FVec Ideal S5000x96 .f32) (x2 x3 : FVec Ideal S96x96 .f32) (x4 : FVec Ideal S96 .f32)
    (p : Fin 5000) (q : Fin 96) :
    k0_pay1 (F := Ideal) x0 x1 x2 x3 x4 (ix2 p q) = max (affineAt x0 x1 x2 x3 x4 p q) 0 := by
  unfold k0_pay1 affineAt
  rw [maximumf_apply, addf_apply, addf_apply, bias_apply, broadcast_apply,
    Cert.LibMatmulNN.matmul_nn_apply _ rfl rfl rfl rfl rfl rfl, Cert.LibMatmulNN.matmul_nn_apply _ rfl rfl rfl rfl rfl rfl]
  simp only [truncf_apply, shapeCast_self]
  exact congrArg _ Ideal.ofBits_zero_f32

/-- The second layer's block: the affine map of the two row blocks. -/
theorem pay1_apply (x0 x1 : FVec Ideal S5000x96 .f32) (x2 x3 : FVec Ideal S96x96 .f32) (x4 : FVec Ideal S96 .f32)
    (p : Fin 5000) (q : Fin 96) :
    k1_pay1 (F := Ideal) x0 x1 x2 x3 x4 (ix2 p q) = affineAt x0 x1 x2 x3 x4 p q := by
  unfold k1_pay1 affineAt
  rw [addf_apply, addf_apply, bias_apply,
    Cert.LibMatmulNN.matmul_nn_apply _ rfl rfl rfl rfl rfl rfl, Cert.LibMatmulNN.matmul_nn_apply _ rfl rfl rfl rfl rfl rfl]
  simp only [truncf_apply, shapeCast_self]

/-- The edge kernel's block: the logistic function of each row's inner product. -/
theorem pay2_apply (x0 x1 : FVec Ideal S4096x96 .f32) (r : Fin 4096) :
    k2_pay1 (F := Ideal) x0 x1 (ix1 r) = Ideal.logistic (rowDot x0 x1 r) := by
  unfold k2_pay1 rowDot
  refine congrArg Ideal.logistic ?_
  refine (Ideal.multiReduction_add_single _ 0x00000000#32 reduces_S4096x96_S4096 (.inl rfl) rfl (ix1 r)).trans ?_
  refine Finset.sum_congr rfl fun (k : Fin 96) _ => ?_
  have e : reduces_S4096x96_S4096.lift (ix1 r) k = ix2 r k := funext fun a => Fin.ext (by
    match a with
    | ⟨0, _⟩ => rfl
    | ⟨1, _⟩ => rfl)
  rw [e, shapeCast_self, shapeCast_self]
  rfl

end Cert.KernelIdeal.Bridge

end
-- ==== Proof.HostFns.lean ====
/-
  The host side of the idealized kernel as functions of arrays: the two rows of an edge list with negative node numbers
  wrapped, the neighbours' sum (gather the source rows, add them into the destination rows), the two hidden layers over
  it, the rows gathered at the evaluated edges' ends and padded to whole blocks, and the result — the first 500000
  scores. Read at an entry, the result is the logistic function of the inner product of the two gathered rows: the
  appended rows are cut off again, and a padded array read inside the operand is the operand.
-/
import proofs.«164976_j13151189860606_1_alg».proof.Proof.Gen.KernelIdeal
import proofs.«164976_j13151189860606_1_alg».proof.Proof.DensePay
import Idealize.ShloMosaic.Lib.KernelVsHost

noncomputable section

open scoped BigOperators

namespace Cert.KernelIdeal.Bridge

open Cert.KernelIdeal Cert.KernelIdeal.Gen Cert.Bridge
open Idealize.ShloMosaic Idealize.ShloMosaic.TcCoe Idealize.ShloMosaic.ValueIdx

/-! ## The host stretches as functions -/

/-- Row `0` of the edge list: the source node of every edge. -/
def srcOf (A : (⟨S2x800000, .i32⟩ : BufTy).Contents (Elt Ideal)) : (⟨S800000, .i32⟩ : BufTy).Contents (Elt Ideal) :=
  shapeCast S800000 (extractStridedSlice S1x800000 ![0, 0] A slices_S2x800000_S1x800000_0_0) shapeCasts_S1x800000_S800000

/-- Row `1` of the edge list: the destination node of every edge. -/
def dstOf (A : (⟨S2x800000, .i32⟩ : BufTy).Contents (Elt Ideal)) : (⟨S800000, .i32⟩ : BufTy).Contents (Elt Ideal) :=
  shapeCast S800000 (extractStridedSlice S1x800000 ![1, 0] A slices_S2x800000_S1x800000_1_0) shapeCasts_S1x800000_S800000

/-- A negative node number counts from the end: `50000` is added to it. -/
def wrapEdges (v : (⟨S800000, .i32⟩ : BufTy).Contents (Elt Ideal)) : (⟨S800000, .i32⟩ : BufTy).Contents (Elt Ideal) :=
  select (cmpi .slt v (broadcastInDim S800000 ![] bcast_S_S800000 (constantI S_ 32 0#32)))
    (addi v (broadcastInDim S800000 ![] bcast_S_S800000 (constantI S_ 32 50000#32))) v

/-- The neighbours' sum: the rows of `x` at the edges' sources, added into the rows of their destinations. -/
def aggregate (x : (⟨S50000x96, .f32⟩ : BufTy).Contents (Elt Ideal)) (A : (⟨S2x800000, .i32⟩ : BufTy).Contents (Elt Ideal)) :
    (⟨S50000x96, .f32⟩ : BufTy).Contents (Elt Ideal) :=
  Host.scatterAdd (F := Ideal) scatter_S50000x96_S800000x1_S800000x96_1_0_0_1
    (broadcastInDim S50000x96 ![] bcast_S_S50000x96 (constant (F := Ideal) S_ .f32 0x00000000#32))
    (broadcastInDim S800000x1 ![0] bcast_S800000_S800000x1_0 (dstOf A))
    (Host.gather gather_S50000x96_S800000x1_S800000x96_1_0_n_n_0_1_196 x
      (broadcastInDim S800000x1 ![0] bcast_S800000_S800000x1_0 (wrapEdges (srcOf A))))

/-- The first hidden layer: the dense layer of the neighbours' sum and the features, cut off below at zero. -/
def hidden1 (x : (⟨S50000x96, .f32⟩ : BufTy).Contents (Elt Ideal)) (A : (⟨S2x800000, .i32⟩ : BufTy).Contents (Elt Ideal))
    (wl wr : (⟨S96x96, .f32⟩ : BufTy).Contents (Elt Ideal)) (b : (⟨S96, .f32⟩ : BufTy).Contents (Elt Ideal)) :
    (⟨S50000x96, .f32⟩ : BufTy).Contents (Elt Ideal) :=
  denseRelu (aggregate x A) x wl wr b

/-- The second hidden layer: the dense layer of the first layer's neighbours' sum and the first layer. -/
def hidden2 (h : (⟨S50000x96, .f32⟩ : BufTy).Contents (Elt Ideal)) (A : (⟨S2x800000, .i32⟩ : BufTy).Contents (Elt Ideal))
    (wl wr : (⟨S96x96, .f32⟩ : BufTy).Contents (Elt Ideal)) (b : (⟨S96, .f32⟩ : BufTy).Contents (Elt Ideal)) :
    (⟨S50000x96, .f32⟩ : BufTy).Contents (Elt Ideal) :=
  dense (aggregate h A) h wl wr b

/-- Row `0` of the evaluated edges: one end of each. -/
def endOf0 (E : (⟨S2x500000, .i32⟩ : BufTy).Contents (Elt Ideal)) : (⟨S500000, .i32⟩ : BufTy).Contents (Elt Ideal) :=
  shapeCast S500000 (extractStridedSlice S1x500000 ![0, 0] E slices_S2x500000_S1x500000_0_0) shapeCasts_S1x500000_S500000

/-- Row `1` of the evaluated edges: the other end of each. -/
def endOf1 (E : (⟨S2x500000, .i32⟩ : BufTy).Contents (Elt Ideal)) : (⟨S500000, .i32⟩ : BufTy).Contents (Elt Ideal) :=
  shapeCast S500000 (extractStridedSlice S1x500000 ![1, 0] E slices_S2x500000_S1x500000_1_0) shapeCasts_S1x500000_S500000

/-- A negative node number counts from the end. -/
def wrapEval (v : (⟨S500000, .i32⟩ : BufTy).Contents (Elt Ideal)) : (⟨S500000, .i32⟩ : BufTy).Contents (Elt Ideal) :=
  select (cmpi .slt v (broadcastInDim S500000 ![] bcast_S_S500000 (constantI S_ 32 0#32)))
    (addi v (broadcastInDim S500000 ![] bcast_S_S500000 (constantI S_ 32 50000#32))) v

/-- The rows of `h` at the given nodes. -/
def rowsAt (h : (⟨S50000x96, .f32⟩ : BufTy).Contents (Elt Ideal)) (v : (⟨S500000, .i32⟩ : BufTy).Contents (Elt Ideal)) :
    (⟨S500000x96, .f32⟩ : BufTy).Contents (Elt Ideal) :=
  Host.gather gather_S50000x96_S500000x1_S500000x96_1_0_n_n_0_1_196 h
    (broadcastInDim S500000x1 ![0] bcast_S500000_S500000x1_0 (wrapEval v))

/-- 3808 rows of the converted integer zero appended: the edge count rounded up to whole blocks. -/
def padded (g : (⟨S500000x96, .f32⟩ : BufTy).Contents (Elt Ideal)) : (⟨S503808x96, .f32⟩ : BufTy).Contents (Elt Ideal) :=
  pad S503808x96 ![0, 0] ![3808, 0] ![0, 0] g (sitofp (F := Ideal) .f32 (constantI S_ 32 0#32)) pads_S500000x96_S503808x96_038080_000 h_S_

/-- The kernel's result from the second hidden layer: both ends' rows padded, every padded edge scored, the first
    500000 scores kept. -/
def kernelOut (h : (⟨S50000x96, .f32⟩ : BufTy).Contents (Elt Ideal)) (E : (⟨S2x500000, .i32⟩ : BufTy).Contents (Elt Ideal)) :
    (⟨S500000, .f32⟩ : BufTy).Contents (Elt Ideal) :=
  extractStridedSlice S500000 ![0]
    (scores (n := 503808) (padded (rowsAt h (endOf0 E))) (padded (rowsAt h (endOf1 E)))) slices_S503808_S500000_0

/-- A padded array read at a row of the operand is the operand there. -/
theorem padded_apply (g : (⟨S500000x96, .f32⟩ : BufTy).Contents (Elt Ideal)) (e : Fin 500000) (e' : Fin 503808) (k : Fin 96)
    (he : e'.val = e.val) : padded g (ix2 e' k) = g (ix2 e k) := by
  unfold padded
  refine pad_apply_of_inside ![0, 0] ![3808, 0] ![0, 0] g _ pads_S500000x96_S503808x96_038080_000 h_S_ (ix2 e' k) (ix2 e k) fun a => ?_
  match a with
  | ⟨0, _⟩ => show e'.val = 0 + e.val * (0 + 1); omega
  | ⟨1, _⟩ => show k.val = 0 + k.val * (0 + 1); omega

/-- The result at edge `e`: the logistic function of the inner product of the rows at its two ends. -/
theorem kernelOut_apply (h : (⟨S50000x96, .f32⟩ : BufTy).Contents (Elt Ideal)) (E : (⟨S2x500000, .i32⟩ : BufTy).Contents (Elt Ideal))
    (e : Fin 500000) :
    kernelOut h E (ix1 e) = Ideal.logistic (rowDot (n := 500000) (rowsAt h (endOf0 E)) (rowsAt h (endOf1 E)) e) := by
  obtain ⟨e', he'⟩ : ∃ e' : Fin 503808, e'.val = e.val := ⟨⟨e.val, by have := e.isLt; omega⟩, rfl⟩
  unfold kernelOut
  rw [extractStridedSlice_apply ![0] _ slices_S503808_S500000_0 (ix1 e) (ix1 e') (fun a => by
    match a with
    | ⟨0, _⟩ => show e'.val = 0 + e.val; omega)]
  show Ideal.logistic (rowDot (n := 503808) (padded (rowsAt h (endOf0 E))) (padded (rowsAt h (endOf1 E))) e') = _
  refine congrArg Ideal.logistic ?_
  unfold rowDot
  refine Finset.sum_congr rfl fun k _ => ?_
  rw [padded_apply _ e e' k he', padded_apply _ e e' k he']

end Cert.KernelIdeal.Bridge

end
-- ==== Proof.Region2.lean ====
/-
  The edge scores over all the padded edges, from the 123 row blocks: grid point `t` reads rows
  `4096 t … 4096 t + 4095` of the two gathered-and-padded embedding arrays and writes the same entries of the score
  vector; the 123 blocks tile the 503808 entries, so the score vector ends as the logistic function of each row's
  inner product, entry by entry. Stated for any contents `V` at the region's entry.
-/
import proofs.«164976_j13151189860606_1_alg».proof.Proof.Gen.KernelIdeal.Frame
import proofs.«164976_j13151189860606_1_alg».proof.Proof.DensePay

set_option maxRecDepth 16384

noncomputable section

open scoped BigOperators

namespace Cert.KernelIdeal.Bridge

open Cert.KernelIdeal Cert.KernelIdeal.Gen Cert.Bridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2_r2 : (![0, 0] : Fin 2 → Nat) = fun _ => 0 := funext fun a => by fin_cases a <;> rfl
theorem zero1_r2 : (![0] : Fin 1 → Nat) = fun _ => 0 := funext fun a => by fin_cases a; rfl

/-- The index maps over the grid: all three windows move one block down per point. -/
theorem index_r2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 1) = t.val :=
  (by decide +kernel : ∀ t : Fin grid2.N, _)

/-- Row `r` of the source block at point `t` is row `4096 t + r` of the array. -/
theorem rows_s_r2 (c : Dev nD) (t : Fin cfg2.N) (r : Fin 4096) (k : Fin 96) (i : Fin 503808) (hi : i.val = t.val * 4096 + r.val) :
    (iblk2 V c 0 t : FVec Ideal S4096x96 .f32) (ix2 r k) = (V c main_v44 : FVec Ideal S503808x96 .f32) (ix2 i k) := by
  obtain ⟨e0, e1, -⟩ := index_r2 t
  unfold iblk2
  rw [View.read_apply]
  show V c main_v44 _ = V c main_v44 _
  refine congrArg (V c main_v44) ?_
  funext a
  apply Fin.ext
  match a with
  | ⟨0, _⟩ => show win2_0.index t (0 : Fin 2) * 4096 + 1 * r.val = i.val; omega
  | ⟨1, _⟩ => show win2_0.index t (1 : Fin 2) * 96 + 1 * k.val = k.val; omega

/-- Row `r` of the destination block at point `t` is row `4096 t + r` of the array. -/
theorem rows_d_r2 (c : Dev nD) (t : Fin cfg2.N) (r : Fin 4096) (k : Fin 96) (i : Fin 503808) (hi : i.val = t.val * 4096 + r.val) :
    (iblk2 V c 1 t : FVec Ideal S4096x96 .f32) (ix2 r k) = (V c main_v45 : FVec Ideal S503808x96 .f32) (ix2 i k) := by
  obtain ⟨-, -, e0, e1, -⟩ := index_r2 t
  unfold iblk2
  rw [View.read_apply]
  show V c main_v45 _ = V c main_v45 _
  refine congrArg (V c main_v45) ?_
  funext a
  apply Fin.ext
  match a with
  | ⟨0, _⟩ => show win2_1.index t (0 : Fin 2) * 4096 + 1 * r.val = i.val; omega
  | ⟨1, _⟩ => show win2_1.index t (1 : Fin 2) * 96 + 1 * k.val = k.val; omega

/-- Entry `r` of the output block at point `t` sits at `4096 t + r` of the score vector. -/
theorem out_emb_r2 (t : Fin cfg2.N) (r : Fin 4096) (i : Fin 503808) (hi : i.val = t.val * 4096 + r.val) :
    ((cfg2.win 2).blk t).view.emb (ix1 r) = (ix1 i : S503808.Idx) := by
  obtain ⟨-, -, -, -, e0⟩ := index_r2 t
  funext a
  apply Fin.ext
  match a with
  | ⟨0, _⟩ => show win2_2.index t (0 : Fin 1) * 4096 + 1 * r.val = i.val; omega

/-- The inner product of row `r` of the two blocks at point `t` is that of row `4096 t + r` of the two arrays. -/
theorem rowDot_blocks_r2 (c : Dev nD) (t : Fin cfg2.N) (r : Fin 4096) (i : Fin 503808) (hi : i.val = t.val * 4096 + r.val) :
    rowDot (n := 4096) (iblk2 V c 0 t : FVec Ideal S4096x96 .f32) (iblk2 V c 1 t : FVec Ideal S4096x96 .f32) r
      = rowDot (n := 503808) (V c main_v44) (V c main_v45) i := by
  unfold rowDot
  exact Finset.sum_congr rfl fun k _ => congrArg₂ (· * ·) (rows_s_r2 V c t r k i hi) (rows_d_r2 V c t r k i hi)

/-- What point `t` writes back is block `t` of the scores of the arrays the region found. -/
theorem flushed_r2 (c : Dev nD) (t : Fin cfg2.N) :
    (dat2 V c).flushed 2 t = ((cfg2.win 2).blk t).view.read (Elt Ideal)
      (scores (n := 503808) (V c main_v44) (V c main_v45)) := by
  show (cfg2.win 2).cut (grid2.coords t) ((dat2 V c).after 2 t) = _
  rw [after2_2]
  unfold out2_2
  rw [View.canon_unit_zero zero1_r2]
  simp only [View.ld_unit_zero (S := S4096x96) zero2_r2]
  funext j
  obtain ⟨r, rfl⟩ : ∃ r : Fin 4096, j = ix1 r := ⟨j 0, eq_ix1 j⟩
  have ht : t.val < 123 := Nat.lt_of_lt_of_eq (show t.val < grid2.N from t.isLt) N_2
  obtain ⟨i, hi⟩ : ∃ i : Fin 503808, i.val = t.val * 4096 + r.val := ⟨⟨t.val * 4096 + r.val, by omega⟩, rfl⟩
  refine (pay2_apply (iblk2 V c 0 t) (iblk2 V c 1 t) r).trans ?_
  rw [rowDot_blocks_r2 V c t r i hi, View.read_apply]
  show _ = scores (n := 503808) (V c main_v44) (V c main_v45) (((cfg2.win 2).blk t).view.emb (ix1 r))
  rw [out_emb_r2 t r i hi]
  rfl

/-- An index of the score vector is in point `t`'s block iff it is in the block's range. -/
theorem mem_blk_r2 (t : Fin cfg2.N) (i : S503808.Idx) :
    i ∈ ((cfg2.win 2).blk t).view.set ↔ ∀ a : Fin 1, win2_2.index t a * S4096.size a ≤ (i a).val ∧ (i a).val < win2_2.index t a * S4096.size a + S4096.size a := by
  show i ∈ ((View.whole main_v46).slice (win2_2.rect t)).set ↔ _
  rw [View.set_slice_whole, Rect.mem_set_unit]
  exact Iff.rfl

/-- Entry `e` is in the block of point `e / 4096`. -/
theorem cover_r2 (i : S503808.Idx) : ∃ t : Fin cfg2.N, (cfg2.win 2).flush t = true ∧ i ∈ ((cfg2.win 2).blk t).view.set := by
  have hi0 : (i 0).val < 503808 := (i 0).isLt
  obtain ⟨t, ht⟩ : ∃ t : Fin cfg2.N, t.val = (i 0).val / 4096 := ⟨⟨(i 0).val / 4096, by rw [show cfg2.N = 123 from N_2]; omega⟩, rfl⟩
  obtain ⟨-, -, -, -, e0⟩ := index_r2 t
  refine ⟨t, flush2_2 t, ?_⟩
  rw [mem_blk_r2]
  intro a
  match a with
  | ⟨0, _⟩ => show win2_2.index t (0 : Fin 1) * 4096 ≤ (i 0).val ∧ (i 0).val < win2_2.index t (0 : Fin 1) * 4096 + 4096; omega

/-- The score vector after the region: the scores of the arrays the region found. -/
theorem array_r2 (c : Dev nD) : (dat2 V c).arrAt 2 cfg2.N = scores (n := 503808) (V c main_v44) (V c main_v45) :=
  (dat2 V c).arrAt_eq_of_cover 2 _ (fun t _ => flushed_r2 V c t) cover_r2

end Cert.KernelIdeal.Bridge

end
-- ==== Proof.Region0.lean ====
/-
  Dense layer one over all the nodes, from its ten row blocks: grid point `t` reads rows
  `5000 t … 5000 t + 4999` of the aggregated neighbours and of the node features, both weight matrices and the bias
  whole, and writes the same rows of the result; the ten blocks tile the 50000 rows, so the result array ends as the
  layer of the arrays the region found, entry by entry. Stated for any contents `V` at the region's entry.
-/
import proofs.«164976_j13151189860606_1_alg».proof.Proof.Gen.KernelIdeal.Frame
import proofs.«164976_j13151189860606_1_alg».proof.Proof.DensePay

set_option maxRecDepth 16384

noncomputable section

open scoped BigOperators

namespace Cert.KernelIdeal.Bridge

open Cert.KernelIdeal Cert.KernelIdeal.Gen Cert.Bridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2_r0 : (![0, 0] : Fin 2 → Nat) = fun _ => 0 := funext fun a => by fin_cases a <;> rfl
theorem zero1_r0 : (![0] : Fin 1 → Nat) = fun _ => 0 := funext fun a => by fin_cases a; rfl

/-- The index maps over the grid: the row windows and the output move one block down per point, the weights and the
    bias stay. -/
theorem index_r0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of the aggregated-neighbours block at point `t` is row `5000 t + p` of the array. -/
theorem rows_a_r0 (c : Dev nD) (t : Fin cfg0.N) (p : Fin 5000) (k : Fin 96) (i : Fin 50000) (hi : i.val = t.val * 5000 + p.val) :
    (iblk0 V c 0 t : FVec Ideal S5000x96 .f32) (ix2 p k) = (V c main_v13 : FVec Ideal S50000x96 .f32) (ix2 i k) := by
  obtain ⟨e0, e1, -⟩ := index_r0 t
  unfold iblk0
  rw [View.read_apply]
  show V c main_v13 _ = V c main_v13 _
  refine congrArg (V c main_v13) ?_
  funext a
  apply Fin.ext
  match a with
  | ⟨0, _⟩ => show win0_0.index t (0 : Fin 2) * 5000 + 1 * p.val = i.val; omega
  | ⟨1, _⟩ => show win0_0.index t (1 : Fin 2) * 96 + 1 * k.val = k.val; omega

/-- Row `p` of the features block at point `t` is row `5000 t + p` of the array. -/
theorem rows_x_r0 (c : Dev nD) (t : Fin cfg0.N) (p : Fin 5000) (k : Fin 96) (i : Fin 50000) (hi : i.val = t.val * 5000 + p.val) :
    (iblk0 V c 1 t : FVec Ideal S5000x96 .f32) (ix2 p k) = (V c main_arg0 : FVec Ideal S50000x96 .f32) (ix2 i k) := by
  obtain ⟨-, -, e0, e1, -⟩ := index_r0 t
  unfold iblk0
  rw [View.read_apply]
  show V c main_arg0 _ = V c main_arg0 _
  refine congrArg (V c main_arg0) ?_
  funext a
  apply Fin.ext
  match a with
  | ⟨0, _⟩ => show win0_1.index t (0 : Fin 2) * 5000 + 1 * p.val = i.val; omega
  | ⟨1, _⟩ => show win0_1.index t (1 : Fin 2) * 96 + 1 * k.val = k.val; omega

/-- The left weight matrix is staged whole at every point. -/
theorem whole_wl_r0 (c : Dev nD) (t : Fin cfg0.N) (k q : Fin 96) :
    (iblk0 V c 2 t : FVec Ideal S96x96 .f32) (ix2 k q) = (V c main_arg3 : FVec Ideal S96x96 .f32) (ix2 k q) := by
  obtain ⟨-, -, -, -, e0, e1, -⟩ := index_r0 t
  unfold iblk0
  rw [View.read_apply]
  show V c main_arg3 _ = V c main_arg3 _
  refine congrArg (V c main_arg3) ?_
  funext a
  apply Fin.ext
  match a with
  | ⟨0, _⟩ => show win0_2.index t (0 : Fin 2) * 96 + 1 * k.val = k.val; omega
  | ⟨1, _⟩ => show win0_2.index t (1 : Fin 2) * 96 + 1 * q.val = q.val; omega

/-- The right weight matrix is staged whole at every point. -/
theorem whole_wr_r0 (c : Dev nD) (t : Fin cfg0.N) (k q : Fin 96) :
    (iblk0 V c 3 t : FVec Ideal S96x96 .f32) (ix2 k q) = (V c main_arg4 : FVec Ideal S96x96 .f32) (ix2 k q) := by
  obtain ⟨-, -, -, -, -, -, e0, e1, -⟩ := index_r0 t
  unfold iblk0
  rw [View.read_apply]
  show V c main_arg4 _ = V c main_arg4 _
  refine congrArg (V c main_arg4) ?_
  funext a
  apply Fin.ext
  match a with
  | ⟨0, _⟩ => show win0_3.index t (0 : Fin 2) * 96 + 1 * k.val = k.val; omega
  | ⟨1, _⟩ => show win0_3.index t (1 : Fin 2) * 96 + 1 * q.val = q.val; omega

/-- The bias is staged whole at every point. -/
theorem whole_b_r0 (c : Dev nD) (t : Fin cfg0.N) (q : Fin 96) :
    (iblk0 V c 4 t : FVec Ideal S96 .f32) (ix1 q) = (V c main_arg5 : FVec Ideal S96 .f32) (ix1 q) := by
  obtain ⟨-, -, -, -, -, -, -, -, e0, -⟩ := index_r0 t
  unfold iblk0
  rw [View.read_apply]
  show V c main_arg5 _ = V c main_arg5 _
  refine congrArg (V c main_arg5) ?_
  funext a
  apply Fin.ext
  match a with
  | ⟨0, _⟩ => show win0_4.index t (0 : Fin 1) * 96 + 1 * q.val = q.val; omega

/-- Entry `(p, q)` of the output block at point `t` sits at `(5000 t + p, q)` of the result array. -/
theorem out_emb_r0 (t : Fin cfg0.N) (p : Fin 5000) (q : Fin 96) (i : Fin 50000) (hi : i.val = t.val * 5000 + p.val) :
    ((cfg0.win 5).blk t).view.emb (ix2 p q) = (ix2 i q : S50000x96.Idx) := by
  obtain ⟨-, -, -, -, -, -, -, -, -, e0, e1⟩ := index_r0 t
  funext a
  apply Fin.ext
  match a with
  | ⟨0, _⟩ => show win0_5.index t (0 : Fin 2) * 5000 + 1 * p.val = i.val; omega
  | ⟨1, _⟩ => show win0_5.index t (1 : Fin 2) * 96 + 1 * q.val = q.val; omega

/-- The affine map of the blocks at point `t`, at `(p, q)`, is the affine map of the arrays at `(5000 t + p, q)`: a
    row of a block is that row of its array, and the weights and the bias are the arrays themselves. -/
theorem affine_blocks_r0 (c : Dev nD) (t : Fin cfg0.N) (p : Fin 5000) (q : Fin 96) (i : Fin 50000) (hi : i.val = t.val * 5000 + p.val) :
    affineAt (n := 5000) (iblk0 V c 0 t : FVec Ideal S5000x96 .f32) (iblk0 V c 1 t : FVec Ideal S5000x96 .f32)
        (iblk0 V c 2 t : FVec Ideal S96x96 .f32) (iblk0 V c 3 t : FVec Ideal S96x96 .f32) (iblk0 V c 4 t : FVec Ideal S96 .f32) p q
      = affineAt (n := 50000) (V c main_v13) (V c main_arg0) (V c main_arg3) (V c main_arg4) (V c main_arg5) i q := by
  unfold affineAt
  refine congrArg₂ (· + ·) (congrArg₂ (· + ·) (Finset.sum_congr rfl fun k _ => ?_) (Finset.sum_congr rfl fun k _ => ?_)) ?_
  · exact congrArg₂ (· * ·) (rows_a_r0 V c t p k i hi) (whole_wl_r0 V c t k q)
  · exact congrArg₂ (· * ·) (rows_x_r0 V c t p k i hi) (whole_wr_r0 V c t k q)
  · exact whole_b_r0 V c t q

/-- What point `t` writes back is block `t` of the layer of the arrays the region found. -/
theorem flushed_r0 (c : Dev nD) (t : Fin cfg0.N) :
    (dat0 V c).flushed 5 t = ((cfg0.win 5).blk t).view.read (Elt Ideal)
      (denseRelu (V c main_v13) (V c main_arg0) (V c main_arg3) (V c main_arg4) (V c main_arg5)) := by
  show (cfg0.win 5).cut (grid0.coords t) ((dat0 V c).after 5 t) = _
  rw [after0_5]
  unfold out0_5
  rw [View.canon_unit_zero zero2_r0]
  simp only [View.ld_unit_zero (S := S5000x96) zero2_r0, View.ld_unit_zero (S := S96x96) zero2_r0, View.ld_unit_zero (S := S96) zero1_r0]
  funext j
  obtain ⟨p, q, rfl⟩ : ∃ (p : Fin 5000) (q : Fin 96), j = ix2 p q := ⟨j 0, j 1, eq_ix2 j⟩
  have ht : t.val < 10 := Nat.lt_of_lt_of_eq (show t.val < grid0.N from t.isLt) N_0
  obtain ⟨i, hi⟩ : ∃ i : Fin 50000, i.val = t.val * 5000 + p.val := ⟨⟨t.val * 5000 + p.val, by omega⟩, rfl⟩
  refine (pay0_apply (iblk0 V c 0 t) (iblk0 V c 1 t) (iblk0 V c 2 t) (iblk0 V c 3 t) (iblk0 V c 4 t) p q).trans ?_
  rw [affine_blocks_r0 V c t p q i hi, View.read_apply]
  show _ = denseRelu (V c main_v13) (V c main_arg0) (V c main_arg3) (V c main_arg4) (V c main_arg5) (((cfg0.win 5).blk t).view.emb (ix2 p q))
  rw [out_emb_r0 t p q i hi]
  rfl

/-- An index of the result array is in point `t`'s block iff each coordinate is in the block's range on its axis. -/
theorem mem_blk_r0 (t : Fin cfg0.N) (i : S50000x96.Idx) :
    i ∈ ((cfg0.win 5).blk t).view.set ↔ ∀ a : Fin 2, win0_5.index t a * S5000x96.size a ≤ (i a).val ∧ (i a).val < win0_5.index t a * S5000x96.size a + S5000x96.size a := by
  show i ∈ ((View.whole main_v14).slice (win0_5.rect t)).set ↔ _
  rw [View.set_slice_whole, Rect.mem_set_unit]
  exact Iff.rfl

/-- Row `r` is in the block of point `r / 5000`. -/
theorem cover_r0 (i : S50000x96.Idx) : ∃ t : Fin cfg0.N, (cfg0.win 5).flush t = true ∧ i ∈ ((cfg0.win 5).blk t).view.set := by
  have hi0 : (i 0).val < 50000 := (i 0).isLt
  have hi1 : (i 1).val < 96 := (i 1).isLt
  obtain ⟨t, ht⟩ : ∃ t : Fin cfg0.N, t.val = (i 0).val / 5000 := ⟨⟨(i 0).val / 5000, by rw [show cfg0.N = 10 from N_0]; omega⟩, rfl⟩
  obtain ⟨-, -, -, -, -, -, -, -, -, e0, e1⟩ := index_r0 t
  refine ⟨t, flush0_5 t, ?_⟩
  rw [mem_blk_r0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 96 ≤ (i 1).val ∧ (i 1).val < win0_5.index t (1 : Fin 2) * 96 + 96; omega

/-- The result array after the region: the layer of the arrays the region found. -/
theorem array_r0 (c : Dev nD) : (dat0 V c).arrAt 5 cfg0.N
    = denseRelu (V c main_v13) (V c main_arg0) (V c main_arg3) (V c main_arg4) (V c main_arg5) :=
  (dat0 V c).arrAt_eq_of_cover 5 _ (fun t _ => flushed_r0 V c t) cover_r0

end Cert.KernelIdeal.Bridge

end
-- ==== Proof.Region1.lean ====
/-
  Dense layer two over all the nodes, from its ten row blocks: grid point `t` reads rows
  `5000 t … 5000 t + 4999` of the aggregated neighbours and of the node features, both weight matrices and the bias
  whole, and writes the same rows of the result; the ten blocks tile the 50000 rows, so the result array ends as the
  layer of the arrays the region found, entry by entry. Stated for any contents `V` at the region's entry.
-/
import proofs.«164976_j13151189860606_1_alg».proof.Proof.Gen.KernelIdeal.Frame
import proofs.«164976_j13151189860606_1_alg».proof.Proof.DensePay

set_option maxRecDepth 16384

noncomputable section

open scoped BigOperators

namespace Cert.KernelIdeal.Bridge

open Cert.KernelIdeal Cert.KernelIdeal.Gen Cert.Bridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2_r1 : (![0, 0] : Fin 2 → Nat) = fun _ => 0 := funext fun a => by fin_cases a <;> rfl
theorem zero1_r1 : (![0] : Fin 1 → Nat) = fun _ => 0 := funext fun a => by fin_cases a; rfl

/-- The index maps over the grid: the row windows and the output move one block down per point, the weights and the
    bias stay. -/
theorem index_r1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `p` of the aggregated-neighbours block at point `t` is row `5000 t + p` of the array. -/
theorem rows_a_r1 (c : Dev nD) (t : Fin cfg1.N) (p : Fin 5000) (k : Fin 96) (i : Fin 50000) (hi : i.val = t.val * 5000 + p.val) :
    (iblk1 V c 0 t : FVec Ideal S5000x96 .f32) (ix2 p k) = (V c main_v24 : FVec Ideal S50000x96 .f32) (ix2 i k) := by
  obtain ⟨e0, e1, -⟩ := index_r1 t
  unfold iblk1
  rw [View.read_apply]
  show V c main_v24 _ = V c main_v24 _
  refine congrArg (V c main_v24) ?_
  funext a
  apply Fin.ext
  match a with
  | ⟨0, _⟩ => show win1_0.index t (0 : Fin 2) * 5000 + 1 * p.val = i.val; omega
  | ⟨1, _⟩ => show win1_0.index t (1 : Fin 2) * 96 + 1 * k.val = k.val; omega

/-- Row `p` of the features block at point `t` is row `5000 t + p` of the array. -/
theorem rows_x_r1 (c : Dev nD) (t : Fin cfg1.N) (p : Fin 5000) (k : Fin 96) (i : Fin 50000) (hi : i.val = t.val * 5000 + p.val) :
    (iblk1 V c 1 t : FVec Ideal S5000x96 .f32) (ix2 p k) = (V c main_v14 : FVec Ideal S50000x96 .f32) (ix2 i k) := by
  obtain ⟨-, -, e0, e1, -⟩ := index_r1 t
  unfold iblk1
  rw [View.read_apply]
  show V c main_v14 _ = V c main_v14 _
  refine congrArg (V c main_v14) ?_
  funext a
  apply Fin.ext
  match a with
  | ⟨0, _⟩ => show win1_1.index t (0 : Fin 2) * 5000 + 1 * p.val = i.val; omega
  | ⟨1, _⟩ => show win1_1.index t (1 : Fin 2) * 96 + 1 * k.val = k.val; omega

/-- The left weight matrix is staged whole at every point. -/
theorem whole_wl_r1 (c : Dev nD) (t : Fin cfg1.N) (k q : Fin 96) :
    (iblk1 V c 2 t : FVec Ideal S96x96 .f32) (ix2 k q) = (V c main_arg6 : FVec Ideal S96x96 .f32) (ix2 k q) := by
  obtain ⟨-, -, -, -, e0, e1, -⟩ := index_r1 t
  unfold iblk1
  rw [View.read_apply]
  show V c main_arg6 _ = V c main_arg6 _
  refine congrArg (V c main_arg6) ?_
  funext a
  apply Fin.ext
  match a with
  | ⟨0, _⟩ => show win1_2.index t (0 : Fin 2) * 96 + 1 * k.val = k.val; omega
  | ⟨1, _⟩ => show win1_2.index t (1 : Fin 2) * 96 + 1 * q.val = q.val; omega

/-- The right weight matrix is staged whole at every point. -/
theorem whole_wr_r1 (c : Dev nD) (t : Fin cfg1.N) (k q : Fin 96) :
    (iblk1 V c 3 t : FVec Ideal S96x96 .f32) (ix2 k q) = (V c main_arg7 : FVec Ideal S96x96 .f32) (ix2 k q) := by
  obtain ⟨-, -, -, -, -, -, e0, e1, -⟩ := index_r1 t
  unfold iblk1
  rw [View.read_apply]
  show V c main_arg7 _ = V c main_arg7 _
  refine congrArg (V c main_arg7) ?_
  funext a
  apply Fin.ext
  match a with
  | ⟨0, _⟩ => show win1_3.index t (0 : Fin 2) * 96 + 1 * k.val = k.val; omega
  | ⟨1, _⟩ => show win1_3.index t (1 : Fin 2) * 96 + 1 * q.val = q.val; omega

/-- The bias is staged whole at every point. -/
theorem whole_b_r1 (c : Dev nD) (t : Fin cfg1.N) (q : Fin 96) :
    (iblk1 V c 4 t : FVec Ideal S96 .f32) (ix1 q) = (V c main_arg8 : FVec Ideal S96 .f32) (ix1 q) := by
  obtain ⟨-, -, -, -, -, -, -, -, e0, -⟩ := index_r1 t
  unfold iblk1
  rw [View.read_apply]
  show V c main_arg8 _ = V c main_arg8 _
  refine congrArg (V c main_arg8) ?_
  funext a
  apply Fin.ext
  match a with
  | ⟨0, _⟩ => show win1_4.index t (0 : Fin 1) * 96 + 1 * q.val = q.val; omega

/-- Entry `(p, q)` of the output block at point `t` sits at `(5000 t + p, q)` of the result array. -/
theorem out_emb_r1 (t : Fin cfg1.N) (p : Fin 5000) (q : Fin 96) (i : Fin 50000) (hi : i.val = t.val * 5000 + p.val) :
    ((cfg1.win 5).blk t).view.emb (ix2 p q) = (ix2 i q : S50000x96.Idx) := by
  obtain ⟨-, -, -, -, -, -, -, -, -, e0, e1⟩ := index_r1 t
  funext a
  apply Fin.ext
  match a with
  | ⟨0, _⟩ => show win1_5.index t (0 : Fin 2) * 5000 + 1 * p.val = i.val; omega
  | ⟨1, _⟩ => show win1_5.index t (1 : Fin 2) * 96 + 1 * q.val = q.val; omega

/-- The affine map of the blocks at point `t`, at `(p, q)`, is the affine map of the arrays at `(5000 t + p, q)`: a
    row of a block is that row of its array, and the weights and the bias are the arrays themselves. -/
theorem affine_blocks_r1 (c : Dev nD) (t : Fin cfg1.N) (p : Fin 5000) (q : Fin 96) (i : Fin 50000) (hi : i.val = t.val * 5000 + p.val) :
    affineAt (n := 5000) (iblk1 V c 0 t : FVec Ideal S5000x96 .f32) (iblk1 V c 1 t : FVec Ideal S5000x96 .f32)
        (iblk1 V c 2 t : FVec Ideal S96x96 .f32) (iblk1 V c 3 t : FVec Ideal S96x96 .f32) (iblk1 V c 4 t : FVec Ideal S96 .f32) p q
      = affineAt (n := 50000) (V c main_v24) (V c main_v14) (V c main_arg6) (V c main_arg7) (V c main_arg8) i q := by
  unfold affineAt
  refine congrArg₂ (· + ·) (congrArg₂ (· + ·) (Finset.sum_congr rfl fun k _ => ?_) (Finset.sum_congr rfl fun k _ => ?_)) ?_
  · exact congrArg₂ (· * ·) (rows_a_r1 V c t p k i hi) (whole_wl_r1 V c t k q)
  · exact congrArg₂ (· * ·) (rows_x_r1 V c t p k i hi) (whole_wr_r1 V c t k q)
  · exact whole_b_r1 V c t q

/-- What point `t` writes back is block `t` of the layer of the arrays the region found. -/
theorem flushed_r1 (c : Dev nD) (t : Fin cfg1.N) :
    (dat1 V c).flushed 5 t = ((cfg1.win 5).blk t).view.read (Elt Ideal)
      (dense (V c main_v24) (V c main_v14) (V c main_arg6) (V c main_arg7) (V c main_arg8)) := by
  show (cfg1.win 5).cut (grid1.coords t) ((dat1 V c).after 5 t) = _
  rw [after1_5]
  unfold out1_5
  rw [View.canon_unit_zero zero2_r1]
  simp only [View.ld_unit_zero (S := S5000x96) zero2_r1, View.ld_unit_zero (S := S96x96) zero2_r1, View.ld_unit_zero (S := S96) zero1_r1]
  funext j
  obtain ⟨p, q, rfl⟩ : ∃ (p : Fin 5000) (q : Fin 96), j = ix2 p q := ⟨j 0, j 1, eq_ix2 j⟩
  have ht : t.val < 10 := Nat.lt_of_lt_of_eq (show t.val < grid1.N from t.isLt) N_1
  obtain ⟨i, hi⟩ : ∃ i : Fin 50000, i.val = t.val * 5000 + p.val := ⟨⟨t.val * 5000 + p.val, by omega⟩, rfl⟩
  refine (pay1_apply (iblk1 V c 0 t) (iblk1 V c 1 t) (iblk1 V c 2 t) (iblk1 V c 3 t) (iblk1 V c 4 t) p q).trans ?_
  rw [affine_blocks_r1 V c t p q i hi, View.read_apply]
  show _ = dense (V c main_v24) (V c main_v14) (V c main_arg6) (V c main_arg7) (V c main_arg8) (((cfg1.win 5).blk t).view.emb (ix2 p q))
  rw [out_emb_r1 t p q i hi]
  rfl

/-- An index of the result array is in point `t`'s block iff each coordinate is in the block's range on its axis. -/
theorem mem_blk_r1 (t : Fin cfg1.N) (i : S50000x96.Idx) :
    i ∈ ((cfg1.win 5).blk t).view.set ↔ ∀ a : Fin 2, win1_5.index t a * S5000x96.size a ≤ (i a).val ∧ (i a).val < win1_5.index t a * S5000x96.size a + S5000x96.size a := by
  show i ∈ ((View.whole main_v25).slice (win1_5.rect t)).set ↔ _
  rw [View.set_slice_whole, Rect.mem_set_unit]
  exact Iff.rfl

/-- Row `r` is in the block of point `r / 5000`. -/
theorem cover_r1 (i : S50000x96.Idx) : ∃ t : Fin cfg1.N, (cfg1.win 5).flush t = true ∧ i ∈ ((cfg1.win 5).blk t).view.set := by
  have hi0 : (i 0).val < 50000 := (i 0).isLt
  have hi1 : (i 1).val < 96 := (i 1).isLt
  obtain ⟨t, ht⟩ : ∃ t : Fin cfg1.N, t.val = (i 0).val / 5000 := ⟨⟨(i 0).val / 5000, by rw [show cfg1.N = 10 from N_1]; omega⟩, rfl⟩
  obtain ⟨-, -, -, -, -, -, -, -, -, e0, e1⟩ := index_r1 t
  refine ⟨t, flush1_5 t, ?_⟩
  rw [mem_blk_r1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 96 ≤ (i 1).val ∧ (i 1).val < win1_5.index t (1 : Fin 2) * 96 + 96; omega

/-- The result array after the region: the layer of the arrays the region found. -/
theorem array_r1 (c : Dev nD) : (dat1 V c).arrAt 5 cfg1.N
    = dense (V c main_v24) (V c main_v14) (V c main_arg6) (V c main_arg7) (V c main_arg8) :=
  (dat1 V c).arrAt_eq_of_cover 5 _ (fun t _ => flushed_r1 V c t) cover_r1

end Cert.KernelIdeal.Bridge

end
-- ==== Proof.HostChainA.lean ====
/-
  The idealized kernel's buffers up to region two's exit. Between the launch and the return @main alternates host
  stretches and regions; the buffer contents at each boundary are a fold from the launch memory. Read at the buffers
  that matter: the first stretch gathers the source rows of the features and adds them into their destination rows;
  region one turns that and the features into the first hidden layer; the second stretch aggregates the hidden layer
  the same way; region two gives the second hidden layer. No stretch and neither region writes an argument that a
  later stage reads.
-/
import proofs.«164976_j13151189860606_1_alg».proof.Proof.Gen.KernelIdeal.Frame
import proofs.«164976_j13151189860606_1_alg».proof.Proof.HostFns
import proofs.«164976_j13151189860606_1_alg».proof.Proof.Region0
import proofs.«164976_j13151189860606_1_alg».proof.Proof.Region1
import Idealize.ShloMosaic.Lib.StableHlo.Run

set_option maxRecDepth 16384

noncomputable section

namespace Cert.KernelIdeal.Bridge

open Cert.KernelIdeal Cert.KernelIdeal.Gen Cert.Bridge
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Region one's entry -/

theorem entry1_agg : V1 m ρ c main_v13 = aggregate (m ((c.tc : Thread nD τ).loc main_arg0)) (m ((c.tc : Thread nD τ).loc main_arg1)) := by
  show StableHlo.after hostOps0 (W0 m ρ c) (Proc.devRef .tc main_v13) = _
  after_results <;> rfl

theorem entry1_src : W1 m ρ c (Proc.devRef .tc main_v1) = srcOf (m ((c.tc : Thread nD τ).loc main_arg1)) := by
  show StableHlo.after hostOps0 (W0 m ρ c) (Proc.devRef .tc main_v1) = _
  after_results <;> rfl

theorem entry1_dst : W1 m ρ c (Proc.devRef .tc main_v3) = dstOf (m ((c.tc : Thread nD τ).loc main_arg1)) := by
  show StableHlo.after hostOps0 (W0 m ρ c) (Proc.devRef .tc main_v3) = _
  after_results <;> rfl

/-- The first stretch writes no argument. -/
theorem entry1_arg (b : Ref sig .tc) (hb : b = main_arg0 ∨ b = main_arg1 ∨ b = main_arg2 ∨ b = main_arg3 ∨ b = main_arg4 ∨ b = main_arg5 ∨ b = main_arg6 ∨ b = main_arg7 ∨ b = main_arg8) :
    W1 m ρ c (Proc.devRef .tc b) = m ((c.tc : Thread nD τ).loc b) := by
  rcases hb with rfl | rfl | rfl | rfl | rfl | rfl | rfl | rfl | rfl <;>
  · show StableHlo.after hostOps0 (W0 m ρ c) _ = _
    after_results <;> rfl

/-! ## Region one's exit, the second stretch, region two -/

theorem exit1 : W2 m ρ c (Proc.devRef .tc main_v14) = hidden1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W2_arr m ρ c 5).trans ?_
  rw [array_r0 (V1 m ρ) c, entry1_agg m ρ c]
  show denseRelu _ (W1 m ρ c (Proc.devRef .tc main_arg0)) (W1 m ρ c (Proc.devRef .tc main_arg3))
    (W1 m ρ c (Proc.devRef .tc main_arg4)) (W1 m ρ c (Proc.devRef .tc main_arg5)) = _
  rw [entry1_arg m ρ c main_arg0 (by simp), entry1_arg m ρ c main_arg3 (by simp), entry1_arg m ρ c main_arg4 (by simp),
    entry1_arg m ρ c main_arg5 (by simp)]
  rfl

/-- Region one writes no argument. -/
theorem exit1_arg (b : Ref sig .tc) (hb : b = main_arg1 ∨ b = main_arg2 ∨ b = main_arg6 ∨ b = main_arg7 ∨ b = main_arg8) :
    W2 m ρ c (Proc.devRef .tc b) = m ((c.tc : Thread nD τ).loc b) := by
  refine (W2_of_ne m ρ c b ?_).trans (entry1_arg m ρ c b (by rcases hb with rfl | rfl | rfl | rfl | rfl <;> simp))
  rcases hb with rfl | rfl | rfl | rfl | rfl <;> decide

theorem entry2_hidden : V3 m ρ c main_v14 = hidden1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  show StableHlo.after hostOps1 (W2 m ρ c) (Proc.devRef .tc main_v14) = _
  after_results
  exact exit1 m ρ c

theorem entry2_agg : V3 m ρ c main_v24 = aggregate (hidden1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg1)) := by
  show StableHlo.after hostOps1 (W2 m ρ c) (Proc.devRef .tc main_v24) = _
  after_results
  rw [W2_of_ne m ρ c main_v1 (by decide), W2_of_ne m ρ c main_v3 (by decide), entry1_src m ρ c, entry1_dst m ρ c, exit1 m ρ c]
  rfl

/-- The second stretch writes no argument. -/
theorem entry2_arg (b : Ref sig .tc) (hb : b = main_arg1 ∨ b = main_arg2 ∨ b = main_arg6 ∨ b = main_arg7 ∨ b = main_arg8) :
    W3 m ρ c (Proc.devRef .tc b) = m ((c.tc : Thread nD τ).loc b) := by
  refine Eq.trans ?_ (exit1_arg m ρ c b hb)
  rcases hb with rfl | rfl | rfl | rfl | rfl <;>
  · show StableHlo.after hostOps1 (W2 m ρ c) _ = _
    after_results <;> rfl

theorem exit2 : W4 m ρ c (Proc.devRef .tc main_v25)
    = hidden2 (hidden1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) (m ((c.tc : Thread nD τ).loc main_arg8)) := by
  refine (W4_arr m ρ c 5).trans ?_
  rw [array_r1 (V3 m ρ) c, entry2_agg m ρ c, entry2_hidden m ρ c]
  show dense _ _ (W3 m ρ c (Proc.devRef .tc main_arg6)) (W3 m ρ c (Proc.devRef .tc main_arg7))
    (W3 m ρ c (Proc.devRef .tc main_arg8)) = _
  rw [entry2_arg m ρ c main_arg6 (by simp), entry2_arg m ρ c main_arg7 (by simp), entry2_arg m ρ c main_arg8 (by simp)]
  rfl

theorem exit2_arg2 : W4 m ρ c (Proc.devRef .tc main_arg2) = (m ((c.tc : Thread nD τ).loc main_arg2)) :=
  (W4_of_ne m ρ c main_arg2 (by decide)).trans (entry2_arg m ρ c main_arg2 (by simp))

end Cert.KernelIdeal.Bridge

end
-- ==== Proof.HostChainB.lean ====
/-
  The idealized kernel's buffers from region two's exit to the return: the third stretch gathers the second hidden
  layer's rows at the two ends of every evaluated edge and pads both with 3808 rows; region three scores every padded
  edge; the last stretch keeps the first 500000 scores.
-/
import proofs.«164976_j13151189860606_1_alg».proof.Proof.Gen.KernelIdeal.Frame
import proofs.«164976_j13151189860606_1_alg».proof.Proof.HostFns
import proofs.«164976_j13151189860606_1_alg».proof.Proof.Region2
import proofs.«164976_j13151189860606_1_alg».proof.Proof.HostChainA
import Idealize.ShloMosaic.Lib.StableHlo.Run

set_option maxRecDepth 16384

noncomputable section

namespace Cert.KernelIdeal.Bridge

open Cert.KernelIdeal Cert.KernelIdeal.Gen Cert.Bridge
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The third stretch, region three, the last stretch -/

set_option maxHeartbeats 4000000 in
theorem stretch3_src : W5 m ρ c (Proc.devRef .tc main_v36) = rowsAt (hidden2 (hidden1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) (m ((c.tc : Thread nD τ).loc main_arg8))) (endOf0 (m ((c.tc : Thread nD τ).loc main_arg2))) := by
  show StableHlo.after hostOps2 (W4 m ρ c) (Proc.devRef .tc main_v36) = _
  after_results_simp
  rw [exit2_arg2 m ρ c, exit2 m ρ c]
  rfl

set_option maxHeartbeats 4000000 in
theorem stretch3_dst : W5 m ρ c (Proc.devRef .tc main_v43) = rowsAt (hidden2 (hidden1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) (m ((c.tc : Thread nD τ).loc main_arg8))) (endOf1 (m ((c.tc : Thread nD τ).loc main_arg2))) := by
  show StableHlo.after hostOps2 (W4 m ρ c) (Proc.devRef .tc main_v43) = _
  after_results_simp
  rw [exit2_arg2 m ρ c, exit2 m ρ c]
  rfl

set_option maxHeartbeats 4000000 in
theorem stretch3_zero : W5 m ρ c (Proc.devRef .tc main_c_8) = constantI S_ 32 0#32 := by
  show StableHlo.after hostOps2 (W4 m ρ c) (Proc.devRef .tc main_c_8) = _
  after_results_simp <;> rfl

/-- The padding function's operations carry each value through its buffer's type and back; those transports are the
    identity, so the padded array is the host function of the gathered rows. -/
theorem entry3_src : V8 m ρ c main_v44 = padded (rowsAt (hidden2 (hidden1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) (m ((c.tc : Thread nD τ).loc main_arg8))) (endOf0 (m ((c.tc : Thread nD τ).loc main_arg2)))) := by
  have h36 := stretch3_src m ρ c
  have hc8 := stretch3_zero m ρ c
  show StableHlo.after hostOps2_3 (StableHlo.after hostOps2_2 (StableHlo.after hostOps2_1 (W5 m ρ c))) (Proc.devRef .tc main_v44) = _
  generalize W5 m ρ c = X at h36 hc8 ⊢
  after_results
  simp only [h36, hc8]
  refine eq_of_heq (HEq.trans (cast_heq _ _) (heq_of_eq ?_))
  exact congrArg₂ (fun (x : (⟨S500000x96, .f32⟩ : BufTy).Contents (Elt Ideal)) (v : (⟨S_, .f32⟩ : BufTy).Contents (Elt Ideal)) =>
      pad S503808x96 ![0, 0] ![3808, 0] ![0, 0] x v pads_S500000x96_S503808x96_038080_000 h_S_)
    (eq_of_heq (cast_heq _ _))
    (eq_of_heq ((cast_heq _ _).trans ((cast_heq _ _).trans
      (heq_of_eq (congrArg (sitofp (F := Ideal) .f32) (eq_of_heq (cast_heq _ _)))))))

theorem entry3_dst : V8 m ρ c main_v45 = padded (rowsAt (hidden2 (hidden1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) (m ((c.tc : Thread nD τ).loc main_arg8))) (endOf1 (m ((c.tc : Thread nD τ).loc main_arg2)))) := by
  have h43 := stretch3_dst m ρ c
  show StableHlo.after hostOps2_3 (StableHlo.after hostOps2_2 (StableHlo.after hostOps2_1 (W5 m ρ c))) (Proc.devRef .tc main_v45) = _
  generalize W5 m ρ c = X at h43 ⊢
  after_results
  simp only [h43]
  refine eq_of_heq (HEq.trans (cast_heq _ _) (heq_of_eq ?_))
  exact congrArg₂ (fun (x : (⟨S500000x96, .f32⟩ : BufTy).Contents (Elt Ideal)) (v : (⟨S_, .f32⟩ : BufTy).Contents (Elt Ideal)) =>
      pad S503808x96 ![0, 0] ![3808, 0] ![0, 0] x v pads_S500000x96_S503808x96_038080_000 h_S_)
    (eq_of_heq (cast_heq _ _))
    (eq_of_heq ((cast_heq _ _).trans ((cast_heq _ _).trans
      (heq_of_eq (congrArg (sitofp (F := Ideal) .f32) (eq_of_heq (cast_heq _ _)))))))

/-- Region three's exit: the scores of all the padded edges. -/
theorem exit3 : W9 m ρ c (Proc.devRef .tc main_v46)
    = scores (n := 503808) (padded (rowsAt (hidden2 (hidden1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) (m ((c.tc : Thread nD τ).loc main_arg8))) (endOf0 (m ((c.tc : Thread nD τ).loc main_arg2))))) (padded (rowsAt (hidden2 (hidden1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) (m ((c.tc : Thread nD τ).loc main_arg8))) (endOf1 (m ((c.tc : Thread nD τ).loc main_arg2))))) := by
  refine (W9_arr m ρ c 2).trans ?_
  rw [array_r2 (V8 m ρ) c, entry3_src m ρ c, entry3_dst m ρ c]

/-- The kernel's result buffer at the return: the scores of the first 500000 evaluated edges. -/
theorem result_eq : W10 m ρ c (Proc.devRef .tc main_v47) = kernelOut (hidden2 (hidden1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) (m ((c.tc : Thread nD τ).loc main_arg8))) (m ((c.tc : Thread nD τ).loc main_arg2)) := by
  show StableHlo.after hostOps3 (W9 m ρ c) (Proc.devRef .tc main_v47) = _
  after_results
  rw [exit3 m ρ c]
  rfl

end Cert.KernelIdeal.Bridge

end
-- ==== Proof.RefValue.lean ====
/-
  The reference's result is the kernel's function of the arguments. Operation by operation the reference gathers and
  adds the neighbours' rows exactly as the kernel's host stretches do; each dense layer is the same affine map with the
  bias added before the second product instead of after it, equal because addition of extended reals is commutative
  and associative; and the reference's `1 / (1 + exp (-s))` of each evaluated edge's inner product `s` is the logistic
  function the kernel applies, the initial zero of the row sum dropped.
-/
import proofs.«164976_j13151189860606_1_alg».proof.Proof.Gen.ReferenceIdeal.Read
import proofs.«164976_j13151189860606_1_alg».proof.Proof.HostFns
import Idealize.ShloMosaic.Lib.IdealHost

noncomputable section

open scoped BigOperators

namespace Cert.ReferenceIdeal.RefValue

open Cert.ReferenceIdeal Cert.ReferenceIdeal.Gen Cert.ReferenceIdeal.Read Cert.Bridge
open Idealize.ShloMosaic Idealize.ShloMosaic.TcCoe Idealize.ShloMosaic.ValueIdx

variable (x0 : (⟨S50000x96, .f32⟩ : BufTy).Contents (Elt Ideal)) (x1 : (⟨S2x800000, .i32⟩ : BufTy).Contents (Elt Ideal))
  (x2 : (⟨S2x500000, .i32⟩ : BufTy).Contents (Elt Ideal)) (x3 x4 x6 x7 : (⟨S96x96, .f32⟩ : BufTy).Contents (Elt Ideal))
  (x5 x8 : (⟨S96, .f32⟩ : BufTy).Contents (Elt Ideal))

/-! ## The index maps of the generated reading, by coordinates -/

theorem lrow14 (p : Fin 50000) (q k : Fin 96) : lidx_main_v14 (ix2 p q) k = ix2 p k :=
  funext fun a => Fin.ext (by match a with | ⟨0, _⟩ => rfl | ⟨1, _⟩ => rfl)
theorem rcol14 (p : Fin 50000) (q k : Fin 96) : ridx_main_v14 (ix2 p q) k = ix2 k q :=
  funext fun a => Fin.ext (by match a with | ⟨0, _⟩ => rfl | ⟨1, _⟩ => rfl)
theorem lrow18 (p : Fin 50000) (q k : Fin 96) : lidx_main_v18 (ix2 p q) k = ix2 p k :=
  funext fun a => Fin.ext (by match a with | ⟨0, _⟩ => rfl | ⟨1, _⟩ => rfl)
theorem rcol18 (p : Fin 50000) (q k : Fin 96) : ridx_main_v18 (ix2 p q) k = ix2 k q :=
  funext fun a => Fin.ext (by match a with | ⟨0, _⟩ => rfl | ⟨1, _⟩ => rfl)
theorem lrow35 (p : Fin 50000) (q k : Fin 96) : lidx_main_v35 (ix2 p q) k = ix2 p k :=
  funext fun a => Fin.ext (by match a with | ⟨0, _⟩ => rfl | ⟨1, _⟩ => rfl)
theorem rcol35 (p : Fin 50000) (q k : Fin 96) : ridx_main_v35 (ix2 p q) k = ix2 k q :=
  funext fun a => Fin.ext (by match a with | ⟨0, _⟩ => rfl | ⟨1, _⟩ => rfl)
theorem lrow39 (p : Fin 50000) (q k : Fin 96) : lidx_main_v39 (ix2 p q) k = ix2 p k :=
  funext fun a => Fin.ext (by match a with | ⟨0, _⟩ => rfl | ⟨1, _⟩ => rfl)
theorem rcol39 (p : Fin 50000) (q k : Fin 96) : ridx_main_v39 (ix2 p q) k = ix2 k q :=
  funext fun a => Fin.ext (by match a with | ⟨0, _⟩ => rfl | ⟨1, _⟩ => rfl)
theorem bias16 (p : Fin 50000) (q : Fin 96) : idx_main_v15 (idx_main_v16 (ix2 p q)) = ix1 q :=
  funext fun a => Fin.ext (by match a with | ⟨0, _⟩ => rfl)
theorem bias37 (p : Fin 50000) (q : Fin 96) : idx_main_v36 (idx_main_v37 (ix2 p q)) = ix1 q :=
  funext fun a => Fin.ext (by match a with | ⟨0, _⟩ => rfl)
theorem row60 (e : Fin 500000) (k : Fin 96) : idx_main_v60 (ix1 e) k = ix2 e k :=
  funext fun a => Fin.ext (by match a with | ⟨0, _⟩ => rfl | ⟨1, _⟩ => rfl)

/-! ## Layer one -/

/-- The reference's first neighbours' sum is the kernel's host function. -/
theorem agg1 : val_main_v13 (F := Ideal) x0 x1 = Cert.KernelIdeal.Bridge.aggregate x0 x1 := rfl

/-- The reference's first hidden layer is the kernel's. -/
theorem hidden1_eq : val_main_v20 (F := Ideal) x0 x1 x3 x4 x5 = Cert.KernelIdeal.Bridge.hidden1 x0 x1 x3 x4 x5 := by
  funext i
  obtain ⟨p, q, rfl⟩ : ∃ (p : Fin 50000) (q : Fin 96), i = ix2 p q := ⟨i 0, i 1, eq_ix2 i⟩
  rw [val_main_v20_apply, val_main_v19_apply, val_main_v17_apply, val_main_v14_apply, val_main_v18_apply,
    val_main_v16_apply, val_main_v15_apply, val_main_call0_v0_apply, val_main_call0_cst_apply, agg1, bias16]
  simp only [lrow14, rcol14, lrow18, rcol18]
  show max (((∑ k : Fin 96, Cert.KernelIdeal.Bridge.aggregate x0 x1 (ix2 p k) * x3 (ix2 k q)) + x5 (ix1 q))
      + ∑ k : Fin 96, x0 (ix2 p k) * x4 (ix2 k q)) (Ideal.ofBits .f32 0x00000000#32)
    = max (affineAt (n := 50000) (Cert.KernelIdeal.Bridge.aggregate x0 x1) x0 x3 x4 x5 p q) 0
  rw [Ideal.ofBits_zero_f32, affineAt, add_right_comm]

/-! ## Layer two -/

/-- The reference's second neighbours' sum is the kernel's host function of the first hidden layer. -/
theorem agg2 : val_main_v34 (F := Ideal) x0 x1 x3 x4 x5 = Cert.KernelIdeal.Bridge.aggregate (val_main_v20 (F := Ideal) x0 x1 x3 x4 x5) x1 := rfl

/-- The reference's second hidden layer is the kernel's, over the reference's first. -/
theorem hidden2_eq : val_main_v40 (F := Ideal) x0 x1 x3 x4 x5 x6 x7 x8
    = Cert.KernelIdeal.Bridge.hidden2 (val_main_v20 (F := Ideal) x0 x1 x3 x4 x5) x1 x6 x7 x8 := by
  funext i
  obtain ⟨p, q, rfl⟩ : ∃ (p : Fin 50000) (q : Fin 96), i = ix2 p q := ⟨i 0, i 1, eq_ix2 i⟩
  rw [val_main_v40_apply, val_main_v38_apply, val_main_v35_apply, val_main_v39_apply,
    val_main_v37_apply, val_main_v36_apply, agg2, bias37]
  simp only [lrow35, rcol35, lrow39, rcol39]
  show ((∑ k : Fin 96, Cert.KernelIdeal.Bridge.aggregate (val_main_v20 (F := Ideal) x0 x1 x3 x4 x5) x1 (ix2 p k) * x6 (ix2 k q)) + x8 (ix1 q))
      + ∑ k : Fin 96, val_main_v20 (F := Ideal) x0 x1 x3 x4 x5 (ix2 p k) * x7 (ix2 k q)
    = affineAt (n := 50000) (Cert.KernelIdeal.Bridge.aggregate (val_main_v20 (F := Ideal) x0 x1 x3 x4 x5) x1) (val_main_v20 (F := Ideal) x0 x1 x3 x4 x5) x6 x7 x8 p q
  rw [affineAt, add_right_comm]

/-! ## The scores -/

/-- The reference's rows at one end of the evaluated edges are the kernel's host function of its second layer. -/
theorem rows49 : val_main_v49 (F := Ideal) x0 x1 x2 x3 x4 x5 x6 x7 x8
    = Cert.KernelIdeal.Bridge.rowsAt (val_main_v40 (F := Ideal) x0 x1 x3 x4 x5 x6 x7 x8) (Cert.KernelIdeal.Bridge.endOf0 x2) := rfl

theorem rows58 : val_main_v58 (F := Ideal) x0 x1 x2 x3 x4 x5 x6 x7 x8
    = Cert.KernelIdeal.Bridge.rowsAt (val_main_v40 (F := Ideal) x0 x1 x3 x4 x5 x6 x7 x8) (Cert.KernelIdeal.Bridge.endOf1 x2) := rfl

/-- `1 / (1 + exp (-(0 + s)))` in the host's operations is the logistic function of `s`. -/
theorem logistic_spelled (s : EReal) :
    FloatOps.hostDivf (F := Ideal) (φ := .f32) (FloatOps.ofBits .f32 0x3F800000#32)
      (FloatOps.addf (FloatOps.ofBits .f32 0x3F800000#32)
        (FloatOps.hostUnary .exp (FloatOps.hostNegf (FloatOps.ofBits (F := Ideal) .f32 0x00000000#32 + s))))
    = Ideal.logistic s := by
  show Ideal.div (Ideal.ofBits .f32 0x3F800000#32) (Ideal.ofBits .f32 0x3F800000#32
      + Ideal.exp (-(Ideal.ofBits .f32 0x00000000#32 + s))) = Ideal.div 1 (1 + Ideal.exp (-s))
  rw [Ideal.ofBits_one_f32, Ideal.ofBits_zero_f32, zero_add]

/-- The same over a row's inner product. -/
theorem score_spelled (S D : (⟨S500000x96, .f32⟩ : BufTy).Contents (Elt Ideal)) (e : Fin 500000) :
    FloatOps.hostDivf (F := Ideal) (φ := .f32) (FloatOps.ofBits .f32 0x3F800000#32)
      (FloatOps.addf (FloatOps.ofBits .f32 0x3F800000#32)
        (FloatOps.hostUnary .exp (FloatOps.hostNegf (FloatOps.ofBits (F := Ideal) .f32 0x00000000#32
          + ∑ k : Fin 96, FloatOps.mulf (S (ix2 e k)) (D (ix2 e k))))))
    = Ideal.logistic (rowDot (n := 500000) S D e) :=
  logistic_spelled _

/-- The reference's score of edge `e`: the logistic function of the inner product of its two gathered rows. -/
theorem ref_score (e : Fin 500000) : val_main_v66 (F := Ideal) x0 x1 x2 x3 x4 x5 x6 x7 x8 (ix1 e)
    = Ideal.logistic (rowDot (n := 500000) (val_main_v49 (F := Ideal) x0 x1 x2 x3 x4 x5 x6 x7 x8) (val_main_v58 (F := Ideal) x0 x1 x2 x3 x4 x5 x6 x7 x8) e) := by
  rw [val_main_v66_apply, val_main_v65_apply, val_main_cst_10_apply, val_main_v64_apply,
    val_main_v63_apply, val_main_cst_9_apply, val_main_v62_apply, val_main_v61_apply, val_main_v60_apply,
    val_main_cst_8_apply]
  refine Eq.trans ?_ (score_spelled (val_main_v49 (F := Ideal) x0 x1 x2 x3 x4 x5 x6 x7 x8) (val_main_v58 (F := Ideal) x0 x1 x2 x3 x4 x5 x6 x7 x8) e)
  refine congrArg (fun s : EReal => FloatOps.hostDivf (F := Ideal) (φ := .f32) (FloatOps.ofBits .f32 0x3F800000#32)
      (FloatOps.addf (FloatOps.ofBits .f32 0x3F800000#32)
        (FloatOps.hostUnary .exp (FloatOps.hostNegf (FloatOps.ofBits (F := Ideal) .f32 0x00000000#32 + s)))))
    (Finset.sum_congr rfl fun k _ => ?_)
  rw [val_main_v59_apply, row60]

/-- The reference's result is the kernel's result function of the reference's second hidden layer: the rows the
    reference gathers are the kernel's host function of that layer. -/
theorem out_eq : val_main_v66 (F := Ideal) x0 x1 x2 x3 x4 x5 x6 x7 x8
    = Cert.KernelIdeal.Bridge.kernelOut (val_main_v40 (F := Ideal) x0 x1 x3 x4 x5 x6 x7 x8) x2 := by
  funext i
  obtain ⟨e, rfl⟩ : ∃ e : Fin 500000, i = ix1 e := ⟨i 0, eq_ix1 i⟩
  exact (ref_score x0 x1 x2 x3 x4 x6 x7 x5 x8 e).trans (Cert.KernelIdeal.Bridge.kernelOut_apply (val_main_v40 (F := Ideal) x0 x1 x3 x4 x5 x6 x7 x8) x2 e).symm

/-- The reference's result as the kernel's function of the arguments. -/
theorem result_eq : val_main_v66 (F := Ideal) x0 x1 x2 x3 x4 x5 x6 x7 x8
    = Cert.KernelIdeal.Bridge.kernelOut (Cert.KernelIdeal.Bridge.hidden2 (Cert.KernelIdeal.Bridge.hidden1 x0 x1 x3 x4 x5) x1 x6 x7 x8) x2 := by
  rw [out_eq, hidden2_eq, hidden1_eq]

end Cert.ReferenceIdeal.RefValue

end
-- ==== Proof.lean ====
/-
  The claim: a two-layer graph network scoring 500000 candidate edges. Each layer sums, for every node, the rows of
  its in-neighbours (a gather of the edges' source rows added into their destination rows), multiplies that sum and the
  node's own row by two 96×96 weight matrices, and adds a bias; the first layer is cut off below at zero. An edge's
  score is the logistic function of the inner product of its two ends' rows in the second layer.

  The kernel computes the two dense layers in ten row blocks each and the scores in 123 blocks of 4096 edges after
  padding the gathered rows, and keeps the first 500000 scores; the reference computes each layer whole, adds the bias
  before the second product, and spells the logistic function as `1 / (1 + exp (-s))`. Over the extended reals the
  two results are one function of the arguments: block by block the kernel's arrays are the whole-array layers, sums of
  extended reals may be regrouped, the appended rows are cut off again, and the two spellings of the logistic function
  agree everywhere. Nothing is rewritten by the idealization, so the preservation claim is empty.
-/
import proofs.«164976_j13151189860606_1_alg».proof.Defs
import proofs.«164976_j13151189860606_1_alg».proof.Proof.Gen.Kernel
import proofs.«164976_j13151189860606_1_alg».proof.Proof.Gen.Kernel.Frame
import proofs.«164976_j13151189860606_1_alg».proof.Proof.Gen.KernelIdeal
import proofs.«164976_j13151189860606_1_alg».proof.Proof.Gen.KernelIdeal.Frame
import proofs.«164976_j13151189860606_1_alg».proof.Proof.Gen.ReferenceIdeal
import proofs.«164976_j13151189860606_1_alg».proof.Proof.Gen.Pre_finite_inputs
import proofs.«164976_j13151189860606_1_alg».proof.Proof.Gen.ReferenceIdeal.Run
import proofs.«164976_j13151189860606_1_alg».proof.Proof.Gen.ReferenceIdeal.Read
import proofs.«164976_j13151189860606_1_alg».proof.Proof.KernelRun
import proofs.«164976_j13151189860606_1_alg».proof.Proof.HostChainB
import proofs.«164976_j13151189860606_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the scores of the first 500000 evaluated edges: the kernel's result buffer read through the
    fold of its stretches and regions, the reference's through its operations, one function of the arguments. -/
theorem algebraic : Cert.algebraic_KernelIdeal_ReferenceIdeal := by
  intro m ρ m' ρ' _ hagree
  refine ⟨fun c => Cert.KernelIdeal.Bridge.kernelOut (Cert.KernelIdeal.Bridge.hidden2 (Cert.KernelIdeal.Bridge.hidden1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Bridge.result_eq m ρ c), (h c).2⟩) (Cert.KernelIdeal.Bridge.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v66_eq, Cert.ReferenceIdeal.RefValue.result_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
